-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S10000x256 : Shape := ⟨2, ![10000, 256]⟩

abbrev nBuf : Space → Nat
  | .hbm => 8
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S1x128, .f32⟩
  | .local _ .vmem, ⟨8, _⟩ => ⟨S200x128, .f32⟩
  | .local _ .vmem, ⟨9, _⟩ => ⟨S200x128, .f32⟩
  | .local _ .vmem, ⟨10, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x256_S10000x128_0_0 : ∀ a, (![0, 0] : Fin 2 → Nat) a + S10000x128.size a ≤ S10000x256.size a
  shapeCasts_S10000x128_S10000x128 : S10000x128.ShapeCasts S10000x128
  inb_S10000x256_S10000x128_0_128 : ∀ a, (![0, 128] : Fin 2 → Nat) a + S10000x128.size a ≤ S10000x256.size a
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibBlock.lean ====
/-
  Blocks read at an index: the vocabulary the body's matrix products share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Pieces.lean ====
/-
  What one run of the body leaves behind, in each of its two control cases, as values.

  The body keeps a scratch of 10000 × 256 numbers across the grid. At the first grid point (case A) it fills the
  scratch: its left half (columns 0–127) with the product `x · w₁`, its right half (columns 128–255) with `x · w₂` —
  the two support matrices side by side. At every point it then reads the two halves back, multiplies the point's two
  200-row adjacency blocks with them, adds the two products and the bias row, and stores the 200 × 128 result block.
  At a later point (case B) the scratch is not written: it holds what the point before left.

  So, with `k0_pay1`, `k0_pay2` the two fills and `k0_pay3` the block's arithmetic as functions of what they read:
    * `readBack_left`, `readBack_right`: after a store into the left half and then one into the right half, a load of
      either half reads the payload stored there — the halves share no column (`halves_disjoint`), so the later store
      of the right half does not disturb the left;
    * `filled`, `left_filled`, `right_filled`: the same for the contents the two stores leave;
    * `scratch_A`: case A leaves the scratch at the two fills laid side by side;
    * `block_A`: case A's block is `k0_pay3` of the two fills themselves;
    * `block_B`: case B's block is `k0_pay3` of the two halves of the carried scratch — so, over a scratch that holds two
      fills, of those fills (`block_B_filled`);
    * `scratch_B`: case B leaves the scratch as it found it.
  All of this is independent of what the numbers are (any float instance).
-/
import proofs.«139409_g72980084294335_cont_9to1_m_814_11_alg».proof.Proof.Gen.KernelIdeal.Frame
import proofs.«139409_g72980084294335_cont_9to1_m_814_11_alg».proof.Proof.LibBlock
import Idealize.ShloMosaic.Lib.Pipeline.Value
import Idealize.ShloMosaic.Lib.Tactic

set_option maxRecDepth 65536

noncomputable section

open Idealize.ShloMosaic Idealize.ShloMosaic.TcCoe Idealize.SL.Sem

namespace Cert.KernelIdeal.Pieces

open Cert.KernelIdeal Cert.KernelIdeal.Gen
open Cert.LibBlock (hz)

variable {F : FTy → Type} [FloatOps F]

/-! ## The two halves of the scratch -/

/-- The scratch's left half: all 10000 rows, columns 0–127. -/
abbrev leftHalf : Rect S10000x256 := Rect.unit (s := S10000x256) ![0, 0] S10000x128.size inb_S10000x256_S10000x128_0_0

/-- The scratch's right half: all 10000 rows, columns 128–255. -/
abbrev rightHalf : Rect S10000x256 := Rect.unit (s := S10000x256) ![0, 128] S10000x128.size inb_S10000x256_S10000x128_0_128

/-- The two halves share no column: the left ends at column 127, the right starts at 128. -/
theorem halves_disjoint : Disjoint rightHalf.set leftHalf.toLoadRect.set :=
  Rect.unit_disjoint (1 : Fin 2) (Or.inr (by decide))

/-- The two stores of a fill, last first: `p₂` into the right half over `p₁` into the left. -/
abbrev fills (p₁ : leftHalf.shape.Idx → Elt F .f32) (p₂ : rightHalf.shape.Idx → Elt F .f32) :
    List (View.Piece (Elt F) S10000x256 .f32) :=
  [(⟨rightHalf, p₂⟩ : View.Piece (Elt F) S10000x256 .f32), ⟨leftHalf, p₁⟩]

/-- After the two stores a load of the right half reads the later payload. -/
theorem readBack_right {sg : RefSig} {κ : Kind} {sp : Space} (v : View sg κ sp S10000x256 .f32)
    (p₁ : leftHalf.shape.Idx → Elt F .f32) (p₂ : rightHalf.shape.Idx → Elt F .f32) :
    v.readCov (fills p₁ p₂) rightHalf.toLoadRect = p₂ :=
  View.readCov_cons_toLoadRect (Val := Elt F) v rightHalf p₂ [⟨leftHalf, p₁⟩]

/-- After the two stores a load of the left half reads the earlier payload: the later store lies in other columns. -/
theorem readBack_left {sg : RefSig} {κ : Kind} {sp : Space} (v : View sg κ sp S10000x256 .f32)
    (p₁ : leftHalf.shape.Idx → Elt F .f32) (p₂ : rightHalf.shape.Idx → Elt F .f32) :
    v.readCov (fills p₁ p₂) leftHalf.toLoadRect = p₁ :=
  (View.readCov_cons_of_disjoint (Val := Elt F) v ⟨rightHalf, p₂⟩ [⟨leftHalf, p₁⟩] leftHalf.toLoadRect halves_disjoint).trans
    (View.readCov_cons_toLoadRect (Val := Elt F) v leftHalf p₁ [])

/-- The scratch once filled: what the two stores leave. -/
def filled (p₁ : leftHalf.shape.Idx → Elt F .f32) (p₂ : rightHalf.shape.Idx → Elt F .f32) : S10000x256.Idx → Elt F .f32 :=
  View.canon (fills p₁ p₂)

/-- Read back through the right half, the filled scratch is the second fill. -/
theorem right_filled (p₁ : leftHalf.shape.Idx → Elt F .f32) (p₂ : rightHalf.shape.Idx → Elt F .f32) :
    View.ld (filled p₁ p₂) rightHalf = p₂ :=
  (show View.ld (filled p₁ p₂) rightHalf = fun j => View.canon (fills p₁ p₂) (rightHalf.toLoadRect.idx j) from rfl).trans
    ((View.readCov_eq_canon' (Val := Elt F) VS0_0 (fills p₁ p₂) rightHalf.toLoadRect).symm.trans (readBack_right VS0_0 p₁ p₂))

/-- Read back through the left half, it is the first fill. -/
theorem left_filled (p₁ : leftHalf.shape.Idx → Elt F .f32) (p₂ : rightHalf.shape.Idx → Elt F .f32) :
    View.ld (filled p₁ p₂) leftHalf = p₁ :=
  (show View.ld (filled p₁ p₂) leftHalf = fun j => View.canon (fills p₁ p₂) (leftHalf.toLoadRect.idx j) from rfl).trans
    ((View.readCov_eq_canon' (Val := Elt F) VS0_0 (fills p₁ p₂) leftHalf.toLoadRect).symm.trans (readBack_left VS0_0 p₁ p₂))

/-! ## The two control cases -/

/-- CASE A, the scratch: the first point leaves it filled with the two supports. -/
theorem scratch_A (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x10000 .f32) (h5 : a5.IsWhole)
    (a6 : Memref sig .tc .vmem S1x128 .f32) (h6 : a6.IsWhole) (a7 : Memref sig .tc .vmem S200x128 .f32) (h7 : a7.IsWhole)
    (a8 : Memref sig .tc .vmem S10000x256 .f32) (h8 : a8.IsWhole) (hc : cond0_0 i)
    (x : Vec F S10000x128 .f32) (w₁ w₂ : Vec F S128x128 .f32) (a₁ a₂ : Vec F S200x10000 .f32) (b : Vec F S1x128 .f32) :
    sout0_A_0 c i a1 h1 a2 h2 a3 h3 a4 h4 a5 h5 a6 h6 a7 h7 a8 h8 hc x w₁ w₂ a₁ a₂ b = filled (k0_pay1 x w₁) (k0_pay2 x w₂) := by
  unfold sout0_A_0
  rw [View.read_writes_junk_eq_canon]
  unfold kernelRun0_A
  dsimp only
  sl_unfold_words
  simp only [View.readAt_eq_ld, h1.read_unread, h2.read_unread, h3.read_unread,
    View.ld_unit_zero (S := S10000x128) hz, View.ld_unit_zero (S := S128x128) hz]
  rfl

/-- CASE A, the block: the body reads back what it has just stored — the two fills — so its block is the block's
    arithmetic of the fills themselves. -/
theorem block_A (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x10000 .f32) (h5 : a5.IsWhole)
    (a6 : Memref sig .tc .vmem S1x128 .f32) (h6 : a6.IsWhole) (a7 : Memref sig .tc .vmem S200x128 .f32) (h7 : a7.IsWhole)
    (a8 : Memref sig .tc .vmem S10000x256 .f32) (h8 : a8.IsWhole) (hc : cond0_0 i)
    (x : Vec F S10000x128 .f32) (w₁ w₂ : Vec F S128x128 .f32) (a₁ a₂ : Vec F S200x10000 .f32) (b : Vec F S1x128 .f32) :
    out0_A_6 c i a1 h1 a2 h2 a3 h3 a4 h4 a5 h5 a6 h6 a7 h7 a8 h8 hc x w₁ w₂ a₁ a₂ b = k0_pay3 (k0_pay1 x w₁) (k0_pay2 x w₂) a₁ a₂ b := by
  unfold out0_A_6
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread,
    h6.read_unread, View.ld_unit_zero (S := S10000x128) hz, View.ld_unit_zero (S := S128x128) hz,
    View.ld_unit_zero (S := S200x10000) hz, View.ld_unit_zero (S := S1x128) hz]
  exact congrArg₂ (fun s₁ s₂ => k0_pay3 s₁ s₂ a₁ a₂ b)
    (readBack_left a8.view (k0_pay1 x w₁) (k0_pay2 x w₂)) (readBack_right a8.view (k0_pay1 x w₁) (k0_pay2 x w₂))

/-- CASE B, the block: the block's arithmetic of the two halves of the scratch the point before left. -/
theorem block_B (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x10000 .f32) (h5 : a5.IsWhole)
    (a6 : Memref sig .tc .vmem S1x128 .f32) (h6 : a6.IsWhole) (a7 : Memref sig .tc .vmem S200x128 .f32) (h7 : a7.IsWhole)
    (a8 : Memref sig .tc .vmem S10000x256 .f32) (h8 : a8.IsWhole) (hc : ¬cond0_0 i)
    (x : Vec F S10000x128 .f32) (w₁ w₂ : Vec F S128x128 .f32) (a₁ a₂ : Vec F S200x10000 .f32) (b : Vec F S1x128 .f32) (s : Vec F S10000x256 .f32) :
    out0_B_6 c i a1 h1 a2 h2 a3 h3 a4 h4 a5 h5 a6 h6 a7 h7 a8 h8 hc x w₁ w₂ a₁ a₂ b s = k0_pay3 (View.ld s leftHalf) (View.ld s rightHalf) a₁ a₂ b := by
  unfold out0_B_6
  rw [View.read_writes_junk_eq_canon]
  unfold kernelRun0_B
  dsimp only
  rw [View.canon_unit_zero hz]
  simp only [View.readAt_eq_ld, h4.read_unread, h5.read_unread, h6.read_unread, h8.read_unread,
    View.ld_unit_zero (S := S200x10000) hz, View.ld_unit_zero (S := S1x128) hz]

/-- CASE B over a filled scratch: the block's arithmetic of the two fills it holds. (The point's own feature and weight
    blocks are not read in this case.) -/
theorem block_B_filled (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x10000 .f32) (h5 : a5.IsWhole)
    (a6 : Memref sig .tc .vmem S1x128 .f32) (h6 : a6.IsWhole) (a7 : Memref sig .tc .vmem S200x128 .f32) (h7 : a7.IsWhole)
    (a8 : Memref sig .tc .vmem S10000x256 .f32) (h8 : a8.IsWhole) (hc : ¬cond0_0 i)
    (x : Vec F S10000x128 .f32) (w₁ w₂ : Vec F S128x128 .f32) (a₁ a₂ : Vec F S200x10000 .f32) (b : Vec F S1x128 .f32) (p₁ p₂ : Vec F S10000x128 .f32) (s : Vec F S10000x256 .f32) (hs : s = filled p₁ p₂) :
    out0_B_6 c i a1 h1 a2 h2 a3 h3 a4 h4 a5 h5 a6 h6 a7 h7 a8 h8 hc x w₁ w₂ a₁ a₂ b s = k0_pay3 p₁ p₂ a₁ a₂ b :=
  (block_B c i a1 h1 a2 h2 a3 h3 a4 h4 a5 h5 a6 h6 a7 h7 a8 h8 hc x w₁ w₂ a₁ a₂ b s).trans
    (congrArg₂ (fun s₁ s₂ => k0_pay3 s₁ s₂ a₁ a₂ b)
      ((congrArg (fun z => View.ld z leftHalf) hs).trans (left_filled p₁ p₂))
      ((congrArg (fun z => View.ld z rightHalf) hs).trans (right_filled p₁ p₂)))

/-- CASE B, the scratch: untouched. -/
theorem scratch_B (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x10000 .f32) (h5 : a5.IsWhole)
    (a6 : Memref sig .tc .vmem S1x128 .f32) (h6 : a6.IsWhole) (a7 : Memref sig .tc .vmem S200x128 .f32) (h7 : a7.IsWhole)
    (a8 : Memref sig .tc .vmem S10000x256 .f32) (h8 : a8.IsWhole) (hc : ¬cond0_0 i)
    (x : Vec F S10000x128 .f32) (w₁ w₂ : Vec F S128x128 .f32) (a₁ a₂ : Vec F S200x10000 .f32) (b : Vec F S1x128 .f32) (s : Vec F S10000x256 .f32) :
    sout0_B_0 c i a1 h1 a2 h2 a3 h3 a4 h4 a5 h5 a6 h6 a7 h7 a8 h8 hc x w₁ w₂ a₁ a₂ b s = s := rfl

end Cert.KernelIdeal.Pieces

end
-- ==== Proof.Sweep.lean ====
/-
  The sweep over the grid: what the output's staging buffer and the scratch hold after each of the 50 points.

  The first point fills the scratch with the two supports computed from the blocks it is handed; no later point writes
  the scratch, so after EVERY point the scratch holds those same two supports (`supports`). Hence every point's
  200 × 128 block is the block's arithmetic of those two supports and of the point's own adjacency blocks and bias row
  (`blockOf`): at the first point because the body reads back what it has just stored, at a later point because it reads
  the scratch the point before left. The scratch's contents are one induction on the point (`scratch_after`), never an
  enumeration of the grid; each point's block follows from them (`block_after`).
-/
import proofs.«139409_g72980084294335_cont_9to1_m_814_11_alg».proof.Proof.Pieces

set_option maxRecDepth 65536

noncomputable section

open Idealize.ShloMosaic Idealize.ShloMosaic.TcCoe Idealize.SL.Sem

namespace Cert.KernelIdeal.Sweep

open Cert.KernelIdeal Cert.KernelIdeal.Gen Cert.KernelIdeal.Pieces

variable {F : FTy → Type} [FloatOps F]
variable (m : (ℓ : Loc nD τ sig) → Buf (Elt F) ℓ)

/-- The grid's first point. -/
abbrev first : Fin cfg0.N := ⟨0, by rw [show cfg0.N = 50 from N_0]; exact Nat.succ_pos _⟩

/-- The first support, `x · w₁` of the blocks the first point is handed. -/
def support₁ (c : Dev nD) : Vec F S10000x128 .f32 := k0_pay1 (iblk m c 0 first) (iblk m c 1 first)

/-- The second support, `x · w₂`. -/
def support₂ (c : Dev nD) : Vec F S10000x128 .f32 := k0_pay2 (iblk m c 0 first) (iblk m c 2 first)

/-- The scratch as the first point leaves it: the two supports side by side. -/
def supports (c : Dev nD) : Vec F S10000x256 .f32 := filled (support₁ m c) (support₂ m c)

/-- Point `t`'s block: the block's arithmetic of the two supports and of the point's adjacency blocks and bias row. -/
def blockOf (c : Dev nD) (t : Fin cfg0.N) : Vec F S200x128 .f32 :=
  k0_pay3 (support₁ m c) (support₂ m c) (iblk m c 3 t) (iblk m c 4 t) (iblk m c 5 t)

/-- The first point leaves its block in the output's staging buffer … -/
theorem first_block (c : Dev nD) (h : 0 < cfg0.N) : (outsAt0 m c 0 h).1 = blockOf m c ⟨0, h⟩ := by
  have e := outsAt0_A m c ⟨0, h⟩ rfl
  rw [e]
  dsimp only
  exact block_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
        scM0_0 (Memref.isWhole_whole _) ((hcond0_0 ⟨0, h⟩).mpr rfl)
        (iblk m c 0 ⟨0, h⟩) (iblk m c 1 ⟨0, h⟩) (iblk m c 2 ⟨0, h⟩) (iblk m c 3 ⟨0, h⟩) (iblk m c 4 ⟨0, h⟩) (iblk m c 5 ⟨0, h⟩)

/-- … and the two supports in the scratch. -/
theorem first_scratch (c : Dev nD) (h : 0 < cfg0.N) : (outsAt0 m c 0 h).2 = supports m c := by
  have e := outsAt0_A m c ⟨0, h⟩ rfl
  rw [e]
  dsimp only
  exact scratch_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
        scM0_0 (Memref.isWhole_whole _) ((hcond0_0 ⟨0, h⟩).mpr rfl)
        (iblk m c 0 ⟨0, h⟩) (iblk m c 1 ⟨0, h⟩) (iblk m c 2 ⟨0, h⟩) (iblk m c 3 ⟨0, h⟩) (iblk m c 4 ⟨0, h⟩) (iblk m c 5 ⟨0, h⟩)

/-- A later point that finds the two supports in the scratch leaves its block in the output's staging buffer … -/
theorem next_block (c : Dev nD) (n : ℕ) (h : n + 1 < cfg0.N)
    (ih : (outsAt0 m c n (Nat.lt_of_succ_lt h)).2 = supports m c) :
    (outsAt0 m c (n + 1) h).1 = blockOf m c ⟨n + 1, h⟩ := by
  have hN : cfg0.N = 50 := N_0
  have hB : ¬(⟨n + 1, h⟩ : Fin cfg0.N).val % 50 = 0 := by dsimp only; omega
  have e := outsAt0_B m c ⟨n + 1, h⟩ hB
  rw [e]
  dsimp only
  exact block_B_filled (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
        scM0_0 (Memref.isWhole_whole _) (fun hc => hB ((hcond0_0 ⟨n + 1, h⟩).mp hc))
        (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
    (support₁ m c) (support₂ m c) (outsAt0 m c n (Nat.lt_of_succ_lt h)).2 ih

/-- … and the scratch as it found it. -/
theorem next_scratch (c : Dev nD) (n : ℕ) (h : n + 1 < cfg0.N)
    (ih : (outsAt0 m c n (Nat.lt_of_succ_lt h)).2 = supports m c) :
    (outsAt0 m c (n + 1) h).2 = supports m c := by
  have hN : cfg0.N = 50 := N_0
  have hB : ¬(⟨n + 1, h⟩ : Fin cfg0.N).val % 50 = 0 := by dsimp only; omega
  have e := outsAt0_B m c ⟨n + 1, h⟩ hB
  rw [e]
  dsimp only
  exact ih

/-- After EVERY point the scratch holds the two supports: by induction on the point. -/
theorem scratch_after (c : Dev nD) : ∀ (n : ℕ) (h : n < cfg0.N), (outsAt0 m c n h).2 = supports m c
  | 0, h => first_scratch m c h
  | n + 1, h => next_scratch m c n h (scratch_after c n (Nat.lt_of_succ_lt h))

/-- After point `t` the output's staging buffer holds that point's block. -/
theorem block_after (c : Dev nD) (t : Fin cfg0.N) : (outsAt0 m c t.val t.isLt).1 = blockOf m c t := by
  obtain ⟨n, h⟩ := t
  cases n with
  | zero => exact first_block m c h
  | succ n => exact next_block m c n h (scratch_after m c n (Nat.lt_of_succ_lt h))

end Cert.KernelIdeal.Sweep

end
-- ==== Proof.Blocks.lean ====
/-
  Where each window's block sits in its array, and so what a block holds at an index.

  The grid has 50 points. The feature matrix, the two weight matrices and the bias row are handed to the body whole at
  every point (their block index is `(0, 0)` throughout); the two adjacencies and the result move down by 200 rows per
  point (block index `(t, 0)`). So at point `t`:
    * the feature block at `(k, j)` is `x (k, j)`, the weight blocks at `(j, q)` are `w₁ (j, q)`, `w₂ (j, q)`;
    * the adjacency blocks at `(p, k)` are `a₁ (200 t + p, k)`, `a₂ (200 t + p, k)`;
    * the bias row at `(0, q)` is `b q` — the row is the bias vector reshaped to `[1, 128]` by the host before the call;
    * entry `(p, q)` of the result block is entry `(200 t + p, q)` of the result array.
  The index facts are decided once over the 50 points; each read is then the arithmetic
  "block index × block size + coordinate inside the block".
-/
import proofs.«139409_g72980084294335_cont_9to1_m_814_11_alg».proof.Proof.Gen.KernelIdeal.Frame
import Idealize.ShloMosaic.Lib.Pipeline.Value
import Idealize.ShloMosaic.Lib.ValueIdx
import Idealize.ShloMosaic.Lib.StableHlo.Run

set_option maxRecDepth 65536

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The printed index maps, decided over the grid: the whole-array windows stay at block `(0, 0)`, the row-blocked
    ones are at block `(t, 0)`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s 200-row block is row `200 t + p` of the array. -/
abbrev row (t : Fin cfg0.N) (p : Fin 200) : Fin 10000 :=
  ⟨200 * t.val + p.val, by have ht := t.isLt; have hN : cfg0.N = 50 := N_0; have hp := p.isLt; omega⟩

/-- The feature block is the feature matrix. -/
theorem feat_at (c : Dev nD) (t : Fin cfg0.N) (k : Fin 10000) (j : Fin 128) :
    (iblk m c 0 t : Vec Ideal S10000x128 .f32) (ix2 k j) = m ((c : Thread nD τ).loc main_arg0) (ix2 k j) := by
  show V m c main_arg0 (((cfg0.win 0).blk t).view.emb (ix2 k j)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 10000 + 1 * k.val = k.val; rw [e0]; omega
  | ⟨1, _⟩ => show win0_0.index t (1 : Fin 2) * 128 + 1 * j.val = j.val; rw [e1]; omega

/-- The first weight block is the first weight matrix. -/
theorem wt₁_at (c : Dev nD) (t : Fin cfg0.N) (j q : Fin 128) :
    (iblk m c 1 t : Vec Ideal S128x128 .f32) (ix2 j q) = m ((c : Thread nD τ).loc main_arg3) (ix2 j q) := by
  show V m c main_arg3 (((cfg0.win 1).blk t).view.emb (ix2 j q)) = _
  rw [V_main_arg3]
  refine congrArg (m ((c : Thread nD τ).loc main_arg3)) (funext fun a => Fin.ext ?_)
  obtain ⟨-, -, e0, e1, -⟩ := idx_facts t
  match a with
  | ⟨0, _⟩ => show win0_1.index t (0 : Fin 2) * 128 + 1 * j.val = j.val; rw [e0]; omega
  | ⟨1, _⟩ => show win0_1.index t (1 : Fin 2) * 128 + 1 * q.val = q.val; rw [e1]; omega

/-- The second weight block is the second weight matrix. -/
theorem wt₂_at (c : Dev nD) (t : Fin cfg0.N) (j q : Fin 128) :
    (iblk m c 2 t : Vec Ideal S128x128 .f32) (ix2 j q) = m ((c : Thread nD τ).loc main_arg4) (ix2 j q) := by
  show V m c main_arg4 (((cfg0.win 2).blk t).view.emb (ix2 j q)) = _
  rw [V_main_arg4]
  refine congrArg (m ((c : Thread nD τ).loc main_arg4)) (funext fun a => Fin.ext ?_)
  obtain ⟨-, -, -, -, e0, e1, -⟩ := idx_facts t
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-- Point `t`'s first adjacency block holds rows `200 t … 200 t + 199` of the first adjacency. -/
theorem adj₁_at (c : Dev nD) (t : Fin cfg0.N) (p : Fin 200) (k : Fin 10000) :
    (iblk m c 3 t : Vec Ideal S200x10000 .f32) (ix2 p k) = m ((c : Thread nD τ).loc main_arg1) (ix2 (row t p) k) := by
  show V m c main_arg1 (((cfg0.win 3).blk t).view.emb (ix2 p k)) = _
  rw [V_main_arg1]
  refine congrArg (m ((c : Thread nD τ).loc main_arg1)) (funext fun a => Fin.ext ?_)
  obtain ⟨-, -, -, -, -, -, e0, e1, -⟩ := idx_facts t
  match a with
  | ⟨0, _⟩ => show win0_3.index t (0 : Fin 2) * 200 + 1 * p.val = 200 * t.val + p.val; rw [e0]; omega
  | ⟨1, _⟩ => show win0_3.index t (1 : Fin 2) * 10000 + 1 * k.val = k.val; rw [e1]; omega

/-- Point `t`'s second adjacency block holds the same rows of the second adjacency. -/
theorem adj₂_at (c : Dev nD) (t : Fin cfg0.N) (p : Fin 200) (k : Fin 10000) :
    (iblk m c 4 t : Vec Ideal S200x10000 .f32) (ix2 p k) = m ((c : Thread nD τ).loc main_arg2) (ix2 (row t p) k) := by
  show V m c main_arg2 (((cfg0.win 4).blk t).view.emb (ix2 p k)) = _
  rw [V_main_arg2]
  refine congrArg (m ((c : Thread nD τ).loc main_arg2)) (funext fun a => Fin.ext ?_)
  obtain ⟨-, -, -, -, -, -, -, -, e0, e1, -⟩ := idx_facts t
  match a with
  | ⟨0, _⟩ => show win0_4.index t (0 : Fin 2) * 200 + 1 * p.val = 200 * t.val + p.val; rw [e0]; omega
  | ⟨1, _⟩ => show win0_4.index t (1 : Fin 2) * 10000 + 1 * k.val = k.val; rw [e1]; omega

/-- The one host operation before the call reshapes the bias vector to a row: the region finds that row. -/
theorem bias_row (c : Dev nD) :
    (V m c main_v0 : S1x128.Idx → Ideal .f32) = shapeCast S1x128 (m ((c : Thread nD τ).loc main_arg5)) shapeCasts_S128_S1x128 := by
  dsimp only [Gen.V, Gen.hostOps0]; after_results; rfl

/-- The bias row at column `q` is the bias at `q`. -/
theorem bias_at (c : Dev nD) (t : Fin cfg0.N) (q : Fin 128) :
    (iblk m c 5 t : Vec Ideal S1x128 .f32) (ix2 (0 : Fin 1) q) = m ((c : Thread nD τ).loc main_arg5) (ix1 q) := by
  show V m c main_v0 (((cfg0.win 5).blk t).view.emb (ix2 (0 : Fin 1) q)) = _
  rw [bias_row]
  refine (shapeCast_addUnit_apply ![128] (m ((c : Thread nD τ).loc main_arg5)) shapeCasts_S128_S1x128 _).trans ?_
  refine congrArg (m ((c : Thread nD τ).loc main_arg5)) (funext fun a => Fin.ext ?_)
  obtain ⟨-, -, -, -, -, -, -, -, -, -, e0, e1, -⟩ := idx_facts t
  match a with
  | ⟨0, _⟩ => show win0_5.index t (1 : Fin 2) * 128 + 1 * q.val = q.val; rw [e1]; omega

/-- Entry `(p, q)` of point `t`'s result block is entry `(200 t + p, q)` of the result array. -/
theorem out_at (t : Fin cfg0.N) (p : Fin 200) (q : Fin 128) :
    ((cfg0.win 6).blk t).view.emb (ix2 p q) = (ix2 (row t p) q : S10000x128.Idx) := by
  refine funext fun a => Fin.ext ?_
  obtain ⟨-, -, -, -, -, -, -, -, -, -, -, -, e0, e1⟩ := idx_facts t
  match a with
  | ⟨0, _⟩ => show win0_6.index t (0 : Fin 2) * 200 + 1 * p.val = 200 * t.val + p.val; rw [e0]; omega
  | ⟨1, _⟩ => show win0_6.index t (1 : Fin 2) * 128 + 1 * q.val = q.val; rw [e1]; omega

end Cert.KernelIdeal.Blocks

end
-- ==== Proof.Spec.lean ====
/-
  The doubled graph convolution as ONE function of its six argument arrays, over the extended reals.

  With `x` the node features (10000 × 128), `a₁`, `a₂` the two dense adjacencies (10000 × 10000), `w₁`, `w₂` the two
  weight matrices (128 × 128) and `b` the bias (128), entry `(p, q)` of the result is

      (∑ₖ a₁ (p, k) · (∑ⱼ x (k, j) · w₁ (j, q))  +  ∑ₖ a₂ (p, k) · (∑ⱼ x (k, j) · w₂ (j, q)))  +  b q.

  `support x w` is the inner product `x · w` (one "support" matrix, 10000 × 128); `aggregate a s` the outer product
  `a · s` of an adjacency with a support. Both programs compute exactly this nesting of the two sums and this grouping
  of the two additions, so nothing about the extended reals is used beyond reading each matrix product as its sum: no
  distributivity, no cancellation, and therefore no finiteness of the inputs.
-/
import Idealize.ShloMosaic.PureOps.Ideal
import Idealize.ShloMosaic.Lib.ValueIdx

noncomputable section

open scoped BigOperators

namespace Cert.Spec

open Idealize.ShloMosaic Idealize.ShloMosaic.ValueIdx

/-- The support matrix `x · w`: entry `(k, q)` is `∑ⱼ x (k, j) · w (j, q)`, the sum over the 128 input features. -/
def support (x : FVec Ideal ⟨2, ![10000, 128]⟩ .f32) (w : FVec Ideal ⟨2, ![128, 128]⟩ .f32) (k : Fin 10000) (q : Fin 128) :
    Ideal .f32 :=
  ∑ j : Fin 128, x (ix2 k j) * w (ix2 j q)

/-- One aggregation `a · s`: entry `(p, q)` is `∑ₖ a (p, k) · s (k, q)`, the sum over the 10000 nodes. -/
def aggregate (a : FVec Ideal ⟨2, ![10000, 10000]⟩ .f32) (s : Fin 10000 → Fin 128 → Ideal .f32) (p : Fin 10000) (q : Fin 128) :
    Ideal .f32 :=
  ∑ k : Fin 10000, a (ix2 p k) * s k q

/-- The result: `(a₁ · (x · w₁) + a₂ · (x · w₂)) + b`, the bias added to every row. -/
def conv (x : FVec Ideal ⟨2, ![10000, 128]⟩ .f32) (a₁ a₂ : FVec Ideal ⟨2, ![10000, 10000]⟩ .f32)
    (w₁ w₂ : FVec Ideal ⟨2, ![128, 128]⟩ .f32) (b : FVec Ideal ⟨1, ![128]⟩ .f32) : FVec Ideal ⟨2, ![10000, 128]⟩ .f32 :=
  fun i => (aggregate a₁ (support x w₁) (i 0) (i 1) + aggregate a₂ (support x w₂) (i 0) (i 1)) + b (ix1 (i 1))

end Cert.Spec

end
-- ==== Proof.Payload.lean ====
/-
  The body's three payloads, read at an index over the extended reals.

  Each is a plain matrix product into a zero accumulator, hence a sum over the contracted coordinate:
    * the two fills of the scratch are the support matrices: at `(k, q)`, `∑ⱼ x (k, j) · w (j, q)`;
    * the block's arithmetic, at `(p, q)` of the 200 × 128 block, is
        `(∑ₖ a₁ (p, k) · s₁ (k, q) + ∑ₖ a₂ (p, k) · s₂ (k, q)) + b (0, q)`
      of the two adjacency blocks `a₁`, `a₂` (200 × 10000), the two supports `s₁`, `s₂` it is handed and the bias
      row `b` (1 × 128), which is broadcast down the block's 200 rows.
  The shape casts the body applies are between equal shapes, so they are the identity.
-/
import proofs.«139409_g72980084294335_cont_9to1_m_814_11_alg».proof.Proof.Gen.KernelIdeal.Skeleton
import proofs.«139409_g72980084294335_cont_9to1_m_814_11_alg».proof.Proof.LibBlock
import proofs.«139409_g72980084294335_cont_9to1_m_814_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first fill is the support `x · w₁`. -/
theorem fill₁_apply (x : Vec Ideal S10000x128 .f32) (w : Vec Ideal S128x128 .f32) (k : Fin 10000) (q : Fin 128) :
    k0_pay1 (F := Ideal) x w (ix2 k q) = Cert.Spec.support x w k q := by
  show shapeCast S10000x128
      (matmul dot_S10000x128_S128x128_S10000x128_1_0_0_1_n_n none x w (constant (F := Ideal) S10000x128 .f32 0x00000000#32))
      shapeCasts_S10000x128_S10000x128 (ix2 k q) = _
  rw [shapeCast_self]
  exact Cert.LibBlock.matmul_zero_ix2 dot_S10000x128_S128x128_S10000x128_1_0_0_1_n_n rfl rfl rfl rfl rfl rfl none x w k q

/-- The second fill is the support `x · w₂`. -/
theorem fill₂_apply (x : Vec Ideal S10000x128 .f32) (w : Vec Ideal S128x128 .f32) (k : Fin 10000) (q : Fin 128) :
    k0_pay2 (F := Ideal) x w (ix2 k q) = Cert.Spec.support x w k q := by
  show shapeCast S10000x128
      (matmul dot_S10000x128_S128x128_S10000x128_1_0_0_1_n_n none x w (constant (F := Ideal) S10000x128 .f32 0x00000000#32))
      shapeCasts_S10000x128_S10000x128 (ix2 k q) = _
  rw [shapeCast_self]
  exact Cert.LibBlock.matmul_zero_ix2 dot_S10000x128_S128x128_S10000x128_1_0_0_1_n_n rfl rfl rfl rfl rfl rfl none x w k q

/-- The block's arithmetic at `(p, q)`: the two aggregations over the 10000 nodes, added, plus the bias at column `q`. -/
theorem block_apply (s₁ s₂ : Vec Ideal S10000x128 .f32) (a₁ a₂ : Vec Ideal S200x10000 .f32) (b : Vec Ideal S1x128 .f32)
    (p : Fin 200) (q : Fin 128) :
    k0_pay3 (F := Ideal) s₁ s₂ a₁ a₂ b (ix2 p q)
      = (∑ k : Fin 10000, a₁ (ix2 p k) * s₁ (ix2 k q) + ∑ k : Fin 10000, a₂ (ix2 p k) * s₂ (ix2 k q))
        + b (ix2 (0 : Fin 1) q) := by
  show addf (addf
        (matmul dot_S200x10000_S10000x128_S200x128_1_0_0_1_n_n none a₁ s₁ (constant (F := Ideal) S200x128 .f32 0x00000000#32))
        (matmul dot_S200x10000_S10000x128_S200x128_1_0_0_1_n_n none a₂ s₂ (constant (F := Ideal) S200x128 .f32 0x00000000#32)))
      (broadcastTo S200x128 (shapeCast S1x128 b shapeCasts_S1x128_S1x128) broadcasts_S1x128_S200x128) (ix2 p q) = _
  rw [addf_apply, addf_apply, shapeCast_self, broadcastTo_1b_ab_apply]
  exact congrArg₂ (· + ·)
    (congrArg₂ (· + ·)
      (Cert.LibBlock.matmul_zero_ix2 dot_S200x10000_S10000x128_S200x128_1_0_0_1_n_n rfl rfl rfl rfl rfl rfl none a₁ s₁ p q)
      (Cert.LibBlock.matmul_zero_ix2 dot_S200x10000_S10000x128_S200x128_1_0_0_1_n_n rfl rfl rfl rfl rfl rfl none a₂ s₂ p q))
    rfl

end Cert.KernelIdeal.Payload

end
-- ==== Proof.ArrayValue.lean ====
/-
  The kernel's result array is the specification of its argument arrays.

  Point `t` writes back a 200 × 128 block. Its entry `(p, q)` is the block's arithmetic of the two supports held in the
  scratch and of the point's adjacency blocks and bias row (Sweep); read at an index that is
      (∑ₖ a₁ (200 t + p, k) · (∑ⱼ x (k, j) · w₁ (j, q)) + ∑ₖ a₂ (200 t + p, k) · (∑ⱼ x (k, j) · w₂ (j, q))) + b q,
  the specification at `(200 t + p, q)` — which is where that entry sits in the result array (`block_entry`,
  `flushed_eq`). Every row `r` of the array lies in the block of point `r / 200`, and every point writes its block back
  (`cover`), so after the run the whole array holds the specification (`final`, `run`).
-/
import proofs.«139409_g72980084294335_cont_9to1_m_814_11_alg».proof.Proof.Gen.KernelIdeal.Value
import proofs.«139409_g72980084294335_cont_9to1_m_814_11_alg».proof.Proof.Sweep
import proofs.«139409_g72980084294335_cont_9to1_m_814_11_alg».proof.Proof.Blocks
import proofs.«139409_g72980084294335_cont_9to1_m_814_11_alg».proof.Proof.Payload
import proofs.«139409_g72980084294335_cont_9to1_m_814_11_alg».proof.Proof.Spec

set_option maxRecDepth 65536

noncomputable section

open scoped BigOperators
open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Sweep Cert.KernelIdeal.Blocks Idealize.ShloMosaic.ValueIdx

variable (m : (ℓ : Loc nD τ sig) → Buf (Elt Ideal) ℓ) (ρ : Dev nD → PrngReg)

/-- The specification of the launch's argument arrays on core `c`. -/
abbrev result (c : Dev nD) : Buf (Elt Ideal) ((c : Thread nD τ).loc main_v1) :=
  Cert.Spec.conv (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first support held in the scratch is `x · w₁` of the argument arrays. -/
theorem support₁_at (c : Dev nD) (k : Fin 10000) (q : Fin 128) :
    support₁ m c (ix2 k q) = Cert.Spec.support (m ((c : Thread nD τ).loc main_arg0)) (m ((c : Thread nD τ).loc main_arg3)) k q := by
  unfold support₁
  refine (Cert.KernelIdeal.Payload.fill₁_apply (iblk m c 0 first) (iblk m c 1 first) k q).trans ?_
  unfold Cert.Spec.support
  exact Finset.sum_congr rfl fun j _ => congrArg₂ (· * ·) (feat_at m c first k j) (wt₁_at m c first j q)

/-- The second is `x · w₂`. -/
theorem support₂_at (c : Dev nD) (k : Fin 10000) (q : Fin 128) :
    support₂ m c (ix2 k q) = Cert.Spec.support (m ((c : Thread nD τ).loc main_arg0)) (m ((c : Thread nD τ).loc main_arg4)) k q := by
  unfold support₂
  refine (Cert.KernelIdeal.Payload.fill₂_apply (iblk m c 0 first) (iblk m c 2 first) k q).trans ?_
  unfold Cert.Spec.support
  exact Finset.sum_congr rfl fun j _ => congrArg₂ (· * ·) (feat_at m c first k j) (wt₂_at m c first j q)

/-- Entry `(p, q)` of point `t`'s block is the specification at `(200 t + p, q)`. -/
theorem block_entry (c : Dev nD) (t : Fin cfg0.N) (p : Fin 200) (q : Fin 128) :
    blockOf m c t (ix2 p q) = result m c (ix2 (row t p) q) := by
  unfold blockOf
  refine (Cert.KernelIdeal.Payload.block_apply (support₁ m c) (support₂ m c) (iblk m c 3 t) (iblk m c 4 t) (iblk m c 5 t) p q).trans ?_
  show _ = (Cert.Spec.aggregate (m ((c : Thread nD τ).loc main_arg1)) (Cert.Spec.support (m ((c : Thread nD τ).loc main_arg0)) (m ((c : Thread nD τ).loc main_arg3))) (row t p) q
      + Cert.Spec.aggregate (m ((c : Thread nD τ).loc main_arg2)) (Cert.Spec.support (m ((c : Thread nD τ).loc main_arg0)) (m ((c : Thread nD τ).loc main_arg4))) (row t p) q)
    + (m ((c : Thread nD τ).loc main_arg5)) (ix1 q)
  unfold Cert.Spec.aggregate
  refine congrArg₂ (· + ·)
    (congrArg₂ (· + ·) (Finset.sum_congr rfl fun k _ => ?_) (Finset.sum_congr rfl fun k _ => ?_)) (bias_at m c t q)
  · exact congrArg₂ (· * ·) (adj₁_at m c t p k) (support₁_at m c k q)
  · exact congrArg₂ (· * ·) (adj₂_at m c t p k) (support₂_at m c k q)

/-- WHAT POINT `t` WRITES BACK is block `t` of the specification. -/
theorem flushed_eq (c : Dev nD) (t : Fin cfg0.N) :
    (dats m 0 c).flushed 6 t = ((cfg0.win 6).blk t).view.read (Elt Ideal) (result m c) := by
  rw [Cert.KernelIdeal.Value.flushed6 m c t, block_after m c t]
  refine funext fun (y : S200x128.Idx) => ?_
  obtain ⟨p, q, rfl⟩ : ∃ (p : Fin 200) (q : Fin 128), y = ix2 p q := ⟨y 0, y 1, eq_ix2 y⟩
  show blockOf m c t (ix2 p q) = result m c (((cfg0.win 6).blk t).view.emb (ix2 p q))
  rw [out_at t p q]
  exact block_entry m c t p q

/-- An index of the result array is in point `t`'s block iff each coordinate is in the block's range on its axis. -/
theorem mem_blk (t : Fin cfg0.N) (i : S10000x128.Idx) :
    i ∈ ((cfg0.win 6).blk t).view.set ↔ ∀ a : Fin 2, win0_6.index t a * S200x128.size a ≤ (i a).val
      ∧ (i a).val < win0_6.index t a * S200x128.size a + S200x128.size a := by
  show i ∈ ((View.whole main_v1).slice (win0_6.rect t)).set ↔ _
  rw [View.set_slice_whole, Rect.mem_set_unit]
  exact Iff.rfl

/-- Every index of the result array is in some point's block: row `r` in the block of point `r / 200`. -/
theorem cover (i : S10000x128.Idx) :
    ∃ t : Fin cfg0.N, (cfg0.win 6).flush t = true ∧ i ∈ ((cfg0.win 6).blk t).view.set := by
  have hN : cfg0.N = 50 := N_0
  have hi0 : (i 0).val < 10000 := (i 0).isLt
  have hi1 : (i 1).val < 128 := (i 1).isLt
  have ht : (i 0).val / 200 < cfg0.N := by rw [hN]; omega
  refine ⟨⟨(i 0).val / 200, ht⟩, flush0_6 _, ?_⟩
  rw [mem_blk]
  obtain ⟨-, -, -, -, -, -, -, -, -, -, -, -, e0, e1⟩ := idx_facts ⟨(i 0).val / 200, ht⟩
  intro a
  match a with
  | ⟨0, _⟩ =>
    show win0_6.index ⟨(i 0).val / 200, ht⟩ (0 : Fin 2) * 200 ≤ (i 0).val
      ∧ (i 0).val < win0_6.index ⟨(i 0).val / 200, ht⟩ (0 : Fin 2) * 200 + 200
    rw [e0]; dsimp only; omega
  | ⟨1, _⟩ =>
    show win0_6.index ⟨(i 0).val / 200, ht⟩ (1 : Fin 2) * 128 ≤ (i 1).val
      ∧ (i 1).val < win0_6.index ⟨(i 0).val / 200, ht⟩ (1 : Fin 2) * 128 + 128
    rw [e1]; omega

/-- THE ARRAY after the run: the specification of the argument arrays. -/
theorem final (c : Dev nD) : (dats m 0 c).arrAt 6 cfg0.N = result m c :=
  (dats m 0 c).arrAt_eq_of_cover 6 (result m c) (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.RefIsSpec.lean ====
/-
  The reference computes the specification.

  Its eight host operations are four matrix products (`x · w₁`, `a₁ · (x · w₁)`, `x · w₂`, `a₂ · (x · w₂)`), the sum of
  the two aggregations, the bias broadcast first to a row `[1, 128]` and then down the 10000 rows, and the final sum.
  Read at an index `i = (p, q)`, each product is the sum over its contracted coordinate, the operands taken at `(p, k)`
  and `(k, q)`; the doubly broadcast bias is `b q`. The index equations below say exactly that; with them the reference's
  term at `i` is `Spec.conv` at `i`, the same sums in the same grouping.
-/
import proofs.«139409_g72980084294335_cont_9to1_m_814_11_alg».proof.Proof.Gen.ReferenceIdeal.Read
import proofs.«139409_g72980084294335_cont_9to1_m_814_11_alg».proof.Proof.Spec

noncomputable section

open scoped BigOperators

namespace Cert.ReferenceIdeal.RefValue

open Cert.ReferenceIdeal Cert.ReferenceIdeal.Read Idealize.ShloMosaic Idealize.ShloMosaic.ValueIdx

/-! ### Where each operation reads its operands -/

/-- An aggregation `a · s` at `(p, q)` reads the adjacency at `(p, k)` … -/
theorem adj1_at (i : S10000x128.Idx) (k : Fin 10000) : lidx_main_v1 i k = ix2 (i 0) k :=
  funext fun a => Fin.ext (by match a with | ⟨0, _⟩ => rfl | ⟨1, _⟩ => rfl)

theorem adj2_at (i : S10000x128.Idx) (k : Fin 10000) : lidx_main_v3 i k = ix2 (i 0) k :=
  funext fun a => Fin.ext (by match a with | ⟨0, _⟩ => rfl | ⟨1, _⟩ => rfl)

/-- … and the support at `(k, q)`, whose own product reads the features at `(k, j)` and the weights at `(j, q)`. -/
theorem feat1_at (i : S10000x128.Idx) (k : Fin 10000) (j : Fin 128) : lidx_main_v0 (ridx_main_v1 i k) j = ix2 k j :=
  funext fun a => Fin.ext (by match a with | ⟨0, _⟩ => rfl | ⟨1, _⟩ => rfl)

theorem wt1_at (i : S10000x128.Idx) (k : Fin 10000) (j : Fin 128) : ridx_main_v0 (ridx_main_v1 i k) j = ix2 j (i 1) :=
  funext fun a => Fin.ext (by match a with | ⟨0, _⟩ => rfl | ⟨1, _⟩ => rfl)

theorem feat2_at (i : S10000x128.Idx) (k : Fin 10000) (j : Fin 128) : lidx_main_v2 (ridx_main_v3 i k) j = ix2 k j :=
  funext fun a => Fin.ext (by match a with | ⟨0, _⟩ => rfl | ⟨1, _⟩ => rfl)

theorem wt2_at (i : S10000x128.Idx) (k : Fin 10000) (j : Fin 128) : ridx_main_v2 (ridx_main_v3 i k) j = ix2 j (i 1) :=
  funext fun a => Fin.ext (by match a with | ⟨0, _⟩ => rfl | ⟨1, _⟩ => rfl)

/-- The bias, broadcast to a row and then down the rows, is read at the column. -/
theorem bias_at (i : S10000x128.Idx) : idx_main_v5 (idx_main_v6 i) = ix1 (i 1) :=
  funext fun a => Fin.ext (by match a with | ⟨0, _⟩ => rfl)

/-! ### The reference's result -/

/-- The reference's last stage, as a function of the six arguments, is the specification. -/
theorem ref_eq_conv (x : FVec Ideal S10000x128 .f32) (a₁ a₂ : FVec Ideal S10000x10000 .f32)
    (w₁ w₂ : FVec Ideal S128x128 .f32) (b : FVec Ideal S128 .f32) :
    val_main_v7 (F := Ideal) x a₁ a₂ w₁ w₂ b = Cert.Spec.conv x a₁ a₂ w₁ w₂ b := by
  funext i
  rw [val_main_v7_apply, val_main_v4_apply, val_main_v1_apply, val_main_v3_apply, val_main_v6_apply, val_main_v5_apply]
  simp only [val_main_v0_apply, val_main_v2_apply, adj1_at, adj2_at, feat1_at, wt1_at, feat2_at, wt2_at, bias_at,
    Ideal.addf_def, Cert.Spec.conv, Cert.Spec.aggregate, Cert.Spec.support]
  rfl

end Cert.ReferenceIdeal.RefValue

end
-- ==== Proof.lean ====
/-
  A doubled graph convolution on 10000 nodes: `out = a₁ · (x · w₁) + a₂ · (x · w₂) + b`, with `x` the node features
  (10000 × 128), `a₁`, `a₂` two dense adjacencies (10000 × 10000), `w₁`, `w₂` two weight matrices (128 × 128) and `b` a bias
  (128), computed by one pipelined kernel over 50 blocks of 200 result rows, against the same expression in jnp.

  The kernel computes the two support matrices `x · w₁`, `x · w₂` ONCE, at the first grid point, into a scratch that it
  keeps for the rest of the grid; each point multiplies its 200-row blocks of the two adjacencies with the two supports,
  adds the products and the bias row. The reference forms the same four products and the same two sums. Over the extended
  reals both are, entry by entry,

      (∑ₖ a₁ (r, k) · (∑ⱼ x (k, j) · w₁ (j, q))  +  ∑ₖ a₂ (r, k) · (∑ⱼ x (k, j) · w₂ (j, q)))  +  b q

  (`Cert.Spec.conv`), with the same nesting of the sums and the same grouping of the additions: each matrix product into a
  zero accumulator is the plain sum over its contracted coordinate, on the kernel's side and on the host's. No law of
  the extended reals that could fail at an infinity is used, so the inputs' finiteness is never needed.

  The modules: Spec (the expression), RefIsSpec (the reference computes it), Pieces (what one run of the body leaves, in
  each of its two control cases), Payload (the body's arithmetic read at an index), Sweep (the scratch holds the two
  supports after every point: an induction over the grid), Blocks (where each block sits in its array), ArrayValue
  (the kernel's result array is the expression), LibBlock (a matrix product into a zero accumulator as a sum).
  The idealization rewrote nothing, so `preserves` is trivial; the three frames are the generated ones.
-/
import proofs.«139409_g72980084294335_cont_9to1_m_814_11_alg».proof.Defs
import proofs.«139409_g72980084294335_cont_9to1_m_814_11_alg».proof.Proof.Gen.Kernel
import proofs.«139409_g72980084294335_cont_9to1_m_814_11_alg».proof.Proof.Gen.Kernel.Frame
import proofs.«139409_g72980084294335_cont_9to1_m_814_11_alg».proof.Proof.Gen.KernelIdeal
import proofs.«139409_g72980084294335_cont_9to1_m_814_11_alg».proof.Proof.Gen.KernelIdeal.Frame
import proofs.«139409_g72980084294335_cont_9to1_m_814_11_alg».proof.Proof.Gen.KernelIdeal.Value
import proofs.«139409_g72980084294335_cont_9to1_m_814_11_alg».proof.Proof.Gen.ReferenceIdeal
import proofs.«139409_g72980084294335_cont_9to1_m_814_11_alg».proof.Proof.Gen.ReferenceIdeal.Run
import proofs.«139409_g72980084294335_cont_9to1_m_814_11_alg».proof.Proof.Gen.ReferenceIdeal.Read
import proofs.«139409_g72980084294335_cont_9to1_m_814_11_alg».proof.Proof.Gen.Pre_finite_inputs
import proofs.«139409_g72980084294335_cont_9to1_m_814_11_alg».proof.Proof.ArrayValue
import proofs.«139409_g72980084294335_cont_9to1_m_814_11_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the expression of its arguments, and the reference's result
    at the same expression of arguments that agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_conv,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
